-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S512x2048 : Shape := ⟨2, ![512, 2048]⟩
abbrev S512 : Shape := ⟨1, ![512]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4096x2048 .f32) (main_arg1 : FVec F S512x2048 .f32) (main_arg2 : FVec F S512x2048 .f32) (main_arg3 : FVec F S512 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4096x2048 : Shape := ⟨2, ![4096, 2048]⟩
abbrev S512x2048 : Shape := ⟨2, ![512, 2048]⟩
abbrev S512 : Shape := ⟨1, ![512]⟩
abbrev S1x512 : Shape := ⟨2, ![1, 512]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S512x2048, .f32⟩
  | .hbm, ⟨2, _⟩ => ⟨S512x2048, .f32⟩
  | .hbm, ⟨3, _⟩ => ⟨S512, .f32⟩
  | .hbm, ⟨4, _⟩ => ⟨S512x2048, .f32⟩
  | .hbm, ⟨5, _⟩ => ⟨S512x2048, .bf16⟩
  | .hbm, ⟨6, _⟩ => ⟨S1x512, .f32⟩
  | .hbm, ⟨7, _⟩ => ⟨S4096x512, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S512_S1x512 : S512.ShapeCasts S1x512
  inb_S1024x2048_S1024x2048_0_0 : ∀ a, (![0, 0] : Fin 2 → Nat) a + S1024x2048.size a ≤ S1024x2048.size a
  h_S1024x2048 : 0 < S1024x2048.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .f32 = 32 ∨ (Rect.block (s := S4096x512) S1024x512.size (cc0_transform_3 i) (hinb0_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S512x2048 : Shape := ⟨2, ![512, 2048]⟩
abbrev S512 : Shape := ⟨1, ![512]⟩
abbrev S4096x512 : Shape := ⟨2, ![4096, 512]⟩
abbrev S1x512 : Shape := ⟨2, ![1, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S512x2048, .f32⟩
  | .hbm, ⟨2, _⟩ => ⟨S512x2048, .f32⟩
  | .hbm, ⟨3, _⟩ => ⟨S512, .f32⟩
  | .hbm, ⟨4, _⟩ => ⟨S512x2048, .f32⟩
  | .hbm, ⟨5, _⟩ => ⟨S4096x512, .f32⟩
  | .hbm, ⟨6, _⟩ => ⟨S1x512, .f32⟩
  | .hbm, ⟨7, _⟩ => ⟨S4096x512, .f32⟩
  | .hbm, ⟨8, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S4096x2048_S512x2048_S4096x512_1_1_0_0_n_n_wf : DotDims.WF S4096x2048 S512x2048 S4096x512 [1] [1] [0] [0] [] []

variable [Facts₀]

def dot_S4096x2048_S512x2048_S4096x512_1_1_0_0_n_n : DotDims S4096x2048 S512x2048 S4096x512 where
  lhsContracting := [1]
  rhsContracting := [1]
  lhsNonContracting := [0]
  rhsNonContracting := [0]
  lhsBatch := []
  rhsBatch := []
  wf := dot_S4096x2048_S512x2048_S4096x512_1_1_0_0_n_n_wf

class Facts : Prop extends Facts₀ where

variable [Facts]
-- ==== Proof.MaskedLinear.lean ====
/-
  The masked linear layer, as one function of its four arrays.

  The input `x` has 4096 rows of 2048 features; the mask `s` and the weights `θ` are both 512 × 2048; the bias `b`
  has 512 entries. The weight actually applied to feature `k` for output unit `o` is the product `s[o,k] · θ[o,k]`, and
  the output at row `r`, unit `o` is

      Σ_k  x[r,k] · (s[o,k] · θ[o,k])  +  b[o].

  Everything is read on the extended reals, where sums and products are the exact ones. Both programs compute this
  very expression, term for term: the weights are multiplied entry by entry first, each output entry contracts the
  feature axis of a row of `x` against a row of the weights, and the bias of the unit is added last. No law of
  arithmetic beyond reading the operations at an index is needed to identify them, so nothing here asks the entries to be
  finite.
-/
import Idealize.ShloMosaic.PureOps.Ideal
import Idealize.ShloMosaic.Lib.ValueIdx

noncomputable section

namespace Cert.MaskedLinear

open Idealize.ShloMosaic Idealize.ShloMosaic.ValueIdx

/-- The output entry at row `r` and unit `o`: the row of `x` contracted over the 2048 features against the masked
    weights of unit `o`, plus the unit's bias. -/
def entry (x : FVec Ideal ⟨2, ![4096, 2048]⟩ .f32) (s θ : FVec Ideal ⟨2, ![512, 2048]⟩ .f32)
    (b : FVec Ideal ⟨1, ![512]⟩ .f32) (r : Fin 4096) (o : Fin 512) : EReal :=
  (∑ k : Fin 2048, x (ix2 r k) * (s (ix2 o k) * θ (ix2 o k))) + b (ix1 o)

/-- The whole 4096 × 512 output: `entry` at each index's two coordinates. -/
def layer (x : FVec Ideal ⟨2, ![4096, 2048]⟩ .f32) (s θ : FVec Ideal ⟨2, ![512, 2048]⟩ .f32)
    (b : FVec Ideal ⟨1, ![512]⟩ .f32) : FVec Ideal ⟨2, ![4096, 512]⟩ .f32 :=
  fun i => entry x s θ b (i 0) (i 1)

theorem layer_apply (x : FVec Ideal ⟨2, ![4096, 2048]⟩ .f32) (s θ : FVec Ideal ⟨2, ![512, 2048]⟩ .f32)
    (b : FVec Ideal ⟨1, ![512]⟩ .f32) (r : Fin 4096) (o : Fin 512) :
    layer x s θ b (ix2 r o) = entry x s θ b r o := rfl

end Cert.MaskedLinear

end
-- ==== Proof.ReferenceLayer.lean ====
/-
  The reference computes the masked linear layer.

  Its five operations are: the entrywise product of mask and weights; one contraction of the 4096 × 2048 input with that
  512 × 2048 product over the feature axis of both; the bias laid out as one row of 512 and that row repeated down the
  4096 rows; and the sum of the two 4096 × 512 arrays. Read at an index (r, o) — the contraction as a sum over the
  2048 features, each broadcast as a read of its operand at the coordinates it keeps — this is literally
  Σ_k x[r,k] · (s[o,k] · θ[o,k]) + b[o].
-/
import proofs.«167745_j52338471469274_2_alg».proof.Proof.Gen.ReferenceIdeal.Read
import proofs.«167745_j52338471469274_2_alg».proof.Proof.MaskedLinear

noncomputable section

namespace Cert.ReferenceLayer

open Cert.ReferenceIdeal Cert.ReferenceIdeal.Read Idealize.ShloMosaic Idealize.ShloMosaic.ValueIdx

/-- The left operand of the contraction is read at (r, k): the output's row and the feature. -/
theorem left_index (i : S4096x512.Idx) (k : Fin 2048) : lidx_main_v1 i k = ix2 (i 0) k :=
  funext fun a => Fin.ext (by match a with | ⟨0, _⟩ => rfl | ⟨1, _⟩ => rfl)

/-- The right operand is read at (o, k): the output's unit and the feature. -/
theorem right_index (i : S4096x512.Idx) (k : Fin 2048) : ridx_main_v1 i k = ix2 (i 1) k :=
  funext fun a => Fin.ext (by match a with | ⟨0, _⟩ => rfl | ⟨1, _⟩ => rfl)

/-- Through the two broadcasts the bias is read at the output's unit. -/
theorem bias_index (i : S4096x512.Idx) : idx_main_v2 (idx_main_v3 i) = ix1 (i 1) :=
  funext fun a => Fin.ext (by match a with | ⟨0, _⟩ => rfl)

/-- The reference's result, as a function of its four argument arrays, is the masked linear layer. -/
theorem result_eq_layer (x0 : FVec Ideal S4096x2048 .f32) (x1 x2 : FVec Ideal S512x2048 .f32) (x3 : FVec Ideal S512 .f32) :
    val_main_v4 (F := Ideal) x0 x1 x2 x3 = Cert.MaskedLinear.layer x0 x1 x2 x3 := by
  funext i
  rw [val_main_v4_apply, val_main_v1_apply, val_main_v3_apply, val_main_v2_apply]
  simp only [val_main_v0_apply, left_index, right_index, bias_index, Ideal.addf_def, Ideal.mulf_def]
  rfl

end Cert.ReferenceLayer

end
-- ==== Proof.TileEntry.lean ====
/-
  One entry of one row tile.

  At a grid point the body holds a tile of 1024 rows of the input (1024 × 2048), the whole masked weights (512 × 2048) and
  the bias as one row (1 × 512). It contracts the feature axis of the tile's rows against the feature axis of the weights
  into a zero accumulator, and adds the bias row repeated down the 1024 rows. Read at (p, q) on the extended reals — the
  narrowing of the tile to sixteen bits being the identity there, and the zero accumulator contributing nothing — the
  tile's entry is

      Σ_k  tile[p,k] · w[q,k]  +  biasrow[0,q].
-/
import proofs.«167745_j52338471469274_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.TileEntry

open Cert.KernelIdeal Cert.KernelIdeal.Gen Idealize.ShloMosaic Idealize.ShloMosaic.ValueIdx

/-- The contraction of the body: feature axis against feature axis, rows of the tile by rows of the weights. -/
abbrev tileDot : DotDims S1024x2048 S512x2048 S1024x512 := dot_S1024x2048_S512x2048_S1024x512_1_1_0_0_n_n

/-- The left operand's row is the output's row. -/
theorem left_row (i : S1024x512.Idx) (c : tileDot.contr.Idx) : (tileDot.lhsIdx i c 0).val = (i 0).val := by
  unfold DotDims.lhsIdx
  rw [dif_neg (show ¬(0 : Fin S1024x2048.rank) ∈ tileDot.lhsBatch by decide),
    dif_pos (show (0 : Fin S1024x2048.rank) ∈ tileDot.lhsNonContracting by decide)]
  rfl

/-- The left operand's column is the contracted feature. -/
theorem left_feature (i : S1024x512.Idx) (c : tileDot.contr.Idx) : (tileDot.lhsIdx i c 1).val = (c ⟨0, by decide⟩).val :=
  tileDot.lhsIdx_val_of_single rfl i c

/-- The right operand's row is the output's column. -/
theorem right_row (i : S1024x512.Idx) (c : tileDot.contr.Idx) : (tileDot.rhsIdx i c 0).val = (i 1).val := by
  unfold DotDims.rhsIdx
  rw [dif_neg (show ¬(0 : Fin S512x2048.rank) ∈ tileDot.rhsBatch by decide),
    dif_pos (show (0 : Fin S512x2048.rank) ∈ tileDot.rhsNonContracting by decide)]
  rfl

/-- The right operand's column is the contracted feature too. -/
theorem right_feature (i : S1024x512.Idx) (c : tileDot.contr.Idx) : (tileDot.rhsIdx i c 1).val = (c ⟨0, by decide⟩).val :=
  tileDot.rhsIdx_val_of_single rfl i c

/-- The contraction into the zero accumulator, at (p, q): the sum over the 2048 features of the products. -/
theorem product_apply (l : FVec Ideal S1024x2048 .bf16) (r : FVec Ideal S512x2048 .bf16) (p : Fin 1024) (q : Fin 512) :
    matmul tileDot none l r (constant (F := Ideal) S1024x512 .f32 0x00000000#32) (ix2 p q)
      = ∑ k : Fin 2048, l (ix2 p k) * r (ix2 q k) := by
  simp only [matmul]
  rw [Ideal.matmul_constant_zero_apply, ← Equiv.sum_comp (contrEquiv1 tileDot 2048 rfl rfl).symm]
  refine Finset.sum_congr rfl fun k _ => ?_
  have hk := contrEquiv1_symm_val tileDot 2048 rfl rfl k
  have el : tileDot.lhsIdx (ix2 p q) ((contrEquiv1 tileDot 2048 rfl rfl).symm k) = ix2 p k :=
    funext fun a => Fin.ext (by
      match a with
      | ⟨0, _⟩ => exact left_row _ _
      | ⟨1, _⟩ => exact (left_feature _ _).trans hk)
  have er : tileDot.rhsIdx (ix2 p q) ((contrEquiv1 tileDot 2048 rfl rfl).symm k) = ix2 q k :=
    funext fun a => Fin.ext (by
      match a with
      | ⟨0, _⟩ => exact right_row _ _
      | ⟨1, _⟩ => exact (right_feature _ _).trans hk)
  rw [el, er]

/-- The body's stored value at (p, q) of the tile. -/
theorem payload_apply (x0 : FVec Ideal S1024x2048 .f32) (x1 : FVec Ideal S512x2048 .bf16) (x2 : FVec Ideal S1x512 .f32)
    (p : Fin 1024) (q : Fin 512) :
    k0_pay1 (F := Ideal) x0 x1 x2 (ix2 p q)
      = (∑ k : Fin 2048, x0 (ix2 p k) * x1 (ix2 q k)) + x2 (ix2 (0 : Fin 1) q) := by
  unfold k0_pay1
  rw [addf_apply, broadcastTo_1b_ab_apply, shapeCast_self, shapeCast_self]
  exact congrArg (· + x2 (ix2 (0 : Fin 1) q)) (product_apply _ _ p q)

end Cert.TileEntry

end
-- ==== Proof.RowTiles.lean ====
/-
  Four row tiles make the output.

  The grid has four points. Point t takes rows 1024·t … 1024·t + 1023 of the input as its tile, the whole masked weights
  and the whole bias row at every point, and writes rows 1024·t … 1024·t + 1023 of the output. The masked weights the body
  finds are the entrywise product of the mask and the weights (the narrowing to sixteen bits before the call is the identity
  on the extended reals), and the bias row is the bias laid out as 1 × 512.

  An entry of the tile at (p, q) is Σ_k tile[p,k] · w[q,k] + biasrow[0,q]; with tile[p,k] = x[1024·t + p, k],
  w[q,k] = s[q,k] · θ[q,k] and biasrow[0,q] = b[q] that is the layer's entry at row 1024·t + p, unit q. So what point t
  writes back is the layer read through the point's block. Row r lies in the block of point r / 1024, so the four blocks
  cover the array, and the array ends holding the layer.
-/
import proofs.«167745_j52338471469274_2_alg».proof.Proof.Gen.KernelIdeal.Value
import proofs.«167745_j52338471469274_2_alg».proof.Proof.TileEntry
import proofs.«167745_j52338471469274_2_alg».proof.Proof.MaskedLinear
import Idealize.ShloMosaic.Lib.StableHlo.Run

noncomputable section

namespace Cert.RowTiles

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The four argument arrays, and the layer of them -/

/-- The input, the mask, the weights and the bias as launched on core `c`. -/
abbrev inputOf (c : Dev nD) : FVec Ideal S4096x2048 .f32 := m ((c : Thread nD τ).loc main_arg0)
abbrev maskOf (c : Dev nD) : FVec Ideal S512x2048 .f32 := m ((c : Thread nD τ).loc main_arg1)
abbrev weightsOf (c : Dev nD) : FVec Ideal S512x2048 .f32 := m ((c : Thread nD τ).loc main_arg2)
abbrev biasOf (c : Dev nD) : FVec Ideal S512 .f32 := m ((c : Thread nD τ).loc main_arg3)

/-- The masked linear layer of the launched arrays. -/
abbrev layerOf (c : Dev nD) : FVec Ideal S4096x512 .f32 :=
  Cert.MaskedLinear.layer (inputOf m c) (maskOf m c) (weightsOf m c) (biasOf m c)

/-! ## What the region finds in the two arrays computed before it -/

/-- The masked weights: the entrywise product of mask and weights, narrowed. -/
theorem masked_weights_at_entry (c : Dev nD) : (V m c main_v1 : S512x2048.Idx → EReal)
    = (truncf .bf16 (mulf (maskOf m c) (weightsOf m c)) bitsLt_bf16_f32 : FVec Ideal S512x2048 .bf16) := by
  dsimp only [Gen.V, Gen.hostOps0]; after_results

/-- The bias row: the bias laid out as 1 × 512. -/
theorem bias_row_at_entry (c : Dev nD) : (V m c main_v2 : S1x512.Idx → EReal)
    = (shapeCast S1x512 (biasOf m c) shapeCasts_S512_S1x512 : FVec Ideal S1x512 .f32) := by
  dsimp only [Gen.V, Gen.hostOps0]; after_results; rfl

/-! ## Where the grid puts the blocks -/

theorem zero_offsets : (![0, 0] : Fin 2 → Nat) = fun _ => 0 := funext fun a => by fin_cases a <;> rfl

/-- Point t's block indices: the input and the output move down one tile per point, the weights and the bias row stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 4 :=
  (by decide +kernel : ∀ t : Fin grid0.N, _)

/-- Every tile number is some point's. -/
theorem tile_of_point : ∀ n : Fin 4, ∃ t : Fin cfg0.N, t.val = n.val :=
  (by decide +kernel : ∀ n : Fin 4, ∃ t : Fin grid0.N, t.val = n.val)

/-! ## The three input blocks at a point, read from the launched arrays -/

/-- The input's tile at point t holds rows 1024·t + p of the input. -/
theorem input_tile (c : Dev nD) (t : Fin cfg0.N) (p : Fin 1024) (k : Fin 2048) (h : t.val * 1024 + p.val < 4096) :
    iblk m c 0 t (ix2 p k) = inputOf m c (ix2 ⟨t.val * 1024 + p.val, h⟩ k) := by
  show V m c main_arg0 (((cfg0.win 0).blk t).view.emb (ix2 p k)) = _
  rw [V_main_arg0]
  have e : ((cfg0.win 0).blk t).view.emb (ix2 p k) = ix2 ⟨t.val * 1024 + p.val, h⟩ k := by
    obtain ⟨e0, e1, -⟩ := block_indices t
    funext a; apply Fin.ext
    match a with
    | ⟨0, _⟩ => show win0_0.index t (0 : Fin 2) * 1024 + 1 * p.val = t.val * 1024 + p.val; omega
    | ⟨1, _⟩ => show win0_0.index t (1 : Fin 2) * 2048 + 1 * k.val = k.val; omega
  rw [e]

/-- The weights' block at every point is the whole masked weights: mask times weights, entry by entry. -/
theorem weights_block (c : Dev nD) (t : Fin cfg0.N) (q : Fin 512) (k : Fin 2048) :
    iblk m c 1 t (ix2 q k) = maskOf m c (ix2 q k) * weightsOf m c (ix2 q k) := by
  show V m c main_v1 (((cfg0.win 1).blk t).view.emb (ix2 q k)) = _
  rw [masked_weights_at_entry]
  have e : ((cfg0.win 1).blk t).view.emb (ix2 q k) = ix2 q k := by
    obtain ⟨-, -, e0, e1, -⟩ := block_indices t
    funext a; apply Fin.ext
    match a with
    | ⟨0, _⟩ => show win0_1.index t (0 : Fin 2) * 512 + 1 * q.val = q.val; omega
    | ⟨1, _⟩ => show win0_1.index t (1 : Fin 2) * 2048 + 1 * k.val = k.val; omega
  rw [e]
  rfl

/-- The bias row's block at every point is the whole row: the bias at the unit. -/
theorem bias_block (c : Dev nD) (t : Fin cfg0.N) (q : Fin 512) :
    iblk m c 2 t (ix2 (0 : Fin 1) q) = biasOf m c (ix1 q) := by
  show V m c main_v2 (((cfg0.win 2).blk t).view.emb (ix2 (0 : Fin 1) q)) = _
  rw [bias_row_at_entry]
  have e : ((cfg0.win 2).blk t).view.emb (ix2 (0 : Fin 1) q) = ix2 (0 : Fin 1) q := by
    obtain ⟨-, -, -, -, e0, e1, -⟩ := block_indices t
    funext a; apply Fin.ext
    match a with
    | ⟨0, _⟩ => show win0_2.index t (0 : Fin 2) * 1 + 1 * 0 = 0; omega
    | ⟨1, _⟩ => show win0_2.index t (1 : Fin 2) * 512 + 1 * q.val = q.val; omega
  rw [e]
  exact shapeCast_a_1a_apply _ _ 0 q

/-! ## A tile whose blocks are those rows is those rows of the layer -/

/-- For ANY tile, weights block and bias row that read the four arrays as above at tile number n, the body's stored value
    at an index of the tile is the layer at the index n tiles further down. -/
theorem tile_is_layer_rows (X : FVec Ideal S4096x2048 .f32) (Sm Θ : FVec Ideal S512x2048 .f32) (B : FVec Ideal S512 .f32)
    (x0 : FVec Ideal S1024x2048 .f32) (x1 : FVec Ideal S512x2048 .bf16) (x2 : FVec Ideal S1x512 .f32)
    (n : Nat) (hn : n < 4)
    (h0 : ∀ (p : Fin 1024) (k : Fin 2048) (h : n * 1024 + p.val < 4096), x0 (ix2 p k) = X (ix2 ⟨n * 1024 + p.val, h⟩ k))
    (h1 : ∀ (q : Fin 512) (k : Fin 2048), x1 (ix2 q k) = Sm (ix2 q k) * Θ (ix2 q k))
    (h2 : ∀ q : Fin 512, x2 (ix2 (0 : Fin 1) q) = B (ix1 q))
    (y : S1024x512.Idx) (i : S4096x512.Idx) (hi0 : (i 0).val = n * 1024 + (y 0).val) (hi1 : (i 1).val = (y 1).val) :
    k0_pay1 (F := Ideal) x0 x1 x2 y = Cert.MaskedLinear.layer X Sm Θ B i := by
  obtain ⟨p, q, rfl⟩ : ∃ (p : Fin 1024) (q : Fin 512), y = ix2 p q := ⟨y 0, y 1, eq_ix2 y⟩
  obtain ⟨r, o, rfl⟩ : ∃ (r : Fin 4096) (o : Fin 512), i = ix2 r o := ⟨i 0, i 1, eq_ix2 i⟩
  have hp : n * 1024 + p.val < 4096 := by have := p.isLt; omega
  have hr : r = ⟨n * 1024 + p.val, hp⟩ := Fin.ext hi0
  have ho : o = q := Fin.ext hi1
  subst hr ho
  rw [Cert.TileEntry.payload_apply, Cert.MaskedLinear.layer_apply, h2]
  unfold Cert.MaskedLinear.entry
  exact congrArg (· + B (ix1 o)) (Finset.sum_congr rfl fun k _ => by rw [h0 p k hp, h1])

/-! ## What a point writes back, the cover, and the array after the run -/

/-- Point t writes back the layer read through its block. -/
theorem flushed_eq_layer (c : Dev nD) (t : Fin cfg0.N) :
    (dats m 0 c).flushed 3 t = ((cfg0.win 3).blk t).view.read (Elt Ideal) (layerOf m c) := by
  rw [Cert.KernelIdeal.Value.flushed3]
  unfold out0_3
  rw [View.canon_unit_zero zero_offsets]
  simp only [View.ld_unit_zero (S := S1024x2048) zero_offsets, View.ld_unit_zero (S := S512x2048) zero_offsets,
    View.ld_unit_zero (S := S1x512) zero_offsets]
  obtain ⟨-, -, -, -, -, -, e0, e1, ht⟩ := block_indices t
  funext y
  show k0_pay1 (F := Ideal) (iblk m c 0 t) (iblk m c 1 t) (iblk m c 2 t) y
    = Cert.MaskedLinear.layer (inputOf m c) (maskOf m c) (weightsOf m c) (biasOf m c) (((cfg0.win 3).blk t).view.emb y)
  refine tile_is_layer_rows (inputOf m c) (maskOf m c) (weightsOf m c) (biasOf m c)
    (iblk m c 0 t) (iblk m c 1 t) (iblk m c 2 t) t.val ht
    (fun p k h => input_tile m c t p k h) (fun q k => weights_block m c t q k) (fun q => bias_block m c t q)
    y (((cfg0.win 3).blk t).view.emb y) ?_ ?_
  · show win0_3.index t (0 : Fin 2) * 1024 + 1 * (y 0).val = t.val * 1024 + (y 0).val; omega
  · show win0_3.index t (1 : Fin 2) * 512 + 1 * (y 1).val = (y 1).val; omega

/-- An index of the output is in point t's block iff each coordinate is in the block's range on its axis. -/
theorem mem_block (t : Fin cfg0.N) (i : S4096x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v3).slice (win0_3.rect t)).set ↔ _
  rw [View.set_slice_whole, Rect.mem_set_unit]
  exact Iff.rfl

/-- Row r of the output is in the block of point r / 1024: the four blocks cover the array. -/
theorem blocks_cover (i : S4096x512.Idx) :
    ∃ t : Fin cfg0.N, (cfg0.win 3).flush t = true ∧ i ∈ ((cfg0.win 3).blk t).view.set := by
  have hi0 : (i 0).val < 4096 := (i 0).isLt
  have hi1 : (i 1).val < 512 := (i 1).isLt
  obtain ⟨t, ht⟩ := tile_of_point ⟨(i 0).val / 1024, by omega⟩
  have ht' : t.val = (i 0).val / 1024 := ht
  obtain ⟨-, -, -, -, -, -, e0, e1, -⟩ := block_indices t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-- The output array after the run is the layer of the launched arrays. -/
theorem output_is_layer (c : Dev nD) : (dats m 0 c).arrAt 3 cfg0.N = layerOf m c :=
  (dats m 0 c).arrAt_eq_of_cover 3 (layerOf m c) (fun t _ => flushed_eq_layer m c t) (blocks_cover)

/-- The kernel's run: every weakly fair execution ends with the result at the layer of the launched arrays and the
    arguments as launched. -/
theorem run : θ_run defs (onTc (τ := τ) (main (F := Ideal))) ⟨m, fun _ => 0, ρ⟩ fun r => ∀ c : Dev nD,
      r.2.mem ((c : Thread nD τ).loc main_v3) = layerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (output_is_layer m c), (h c).2⟩)
    (Cert.KernelIdeal.Value.run_blocks m ρ)

end Cert.RowTiles

end
-- ==== Proof.lean ====
/-
  A masked linear layer, tiled over rows, against the same layer computed in one piece.

  The four arrays are an input x (4096 × 2048), a mask s and weights θ (both 512 × 2048) and a bias b (512). Both programs
  first multiply mask and weights entry by entry. The kernel then cuts the 4096 rows of x into four tiles of 1024 rows; at
  each tile it contracts the 2048 features of the tile's rows against those of the masked weights into a zero accumulator,
  adds the bias row repeated down the tile, and writes the tile's 1024 rows of the 4096 × 512 output. The reference
  contracts all 4096 rows at once and adds the bias repeated down all rows. On the extended reals, where a change of float
  format is the identity and a contraction is the exact sum of products, both produce

      out[r, o]  =  Σ_k  x[r,k] · (s[o,k] · θ[o,k])  +  b[o]                              (the layer, Proof/MaskedLinear.lean)

  the reference by reading its five operations at an index (Proof/ReferenceLayer.lean), the kernel because an entry of
  tile t at (p, q) is that expression at row 1024·t + p (Proof/TileEntry.lean) and the four tiles' blocks cover the output
  (Proof/RowTiles.lean). The two sides are the same sum in the same order, so no law that would need finite entries is
  used and the precondition is never opened. No operation of the kernel was replaced for the reading on the extended reals:
  the idealized kernel is the kernel's own text read there, and there is nothing to preserve.
-/
import proofs.«167745_j52338471469274_2_alg».proof.Defs
import proofs.«167745_j52338471469274_2_alg».proof.Proof.Gen.Kernel
import proofs.«167745_j52338471469274_2_alg».proof.Proof.Gen.Kernel.Skeleton
import proofs.«167745_j52338471469274_2_alg».proof.Proof.Gen.Kernel.Launch
import proofs.«167745_j52338471469274_2_alg».proof.Proof.Gen.Kernel.Points
import proofs.«167745_j52338471469274_2_alg».proof.Proof.Gen.Kernel.Frame
import proofs.«167745_j52338471469274_2_alg».proof.Proof.Gen.KernelIdeal
import proofs.«167745_j52338471469274_2_alg».proof.Proof.Gen.KernelIdeal.Skeleton
import proofs.«167745_j52338471469274_2_alg».proof.Proof.Gen.KernelIdeal.Launch
import proofs.«167745_j52338471469274_2_alg».proof.Proof.Gen.KernelIdeal.Points
import proofs.«167745_j52338471469274_2_alg».proof.Proof.Gen.KernelIdeal.Frame
import proofs.«167745_j52338471469274_2_alg».proof.Proof.Gen.ReferenceIdeal
import proofs.«167745_j52338471469274_2_alg».proof.Proof.Gen.Pre_finite_inputs
import proofs.«167745_j52338471469274_2_alg».proof.Proof.Gen.KernelIdeal.Value
import proofs.«167745_j52338471469274_2_alg».proof.Proof.Gen.ReferenceIdeal.Run
import proofs.«167745_j52338471469274_2_alg».proof.Proof.Gen.ReferenceIdeal.Read
import proofs.«167745_j52338471469274_2_alg».proof.Proof.MaskedLinear
import proofs.«167745_j52338471469274_2_alg».proof.Proof.ReferenceLayer
import proofs.«167745_j52338471469274_2_alg».proof.Proof.TileEntry
import proofs.«167745_j52338471469274_2_alg».proof.Proof.RowTiles
import Idealize.ShloMosaic.Adequacy
import Idealize.ShloMosaic.Init

noncomputable section

namespace Cert.Proof

open Idealize.ShloMosaic Idealize.ShloMosaic.TcCoe Idealize.SL.Sem

/-- The kernel as printed runs, and leaves its four arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as launched: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals. -/
theorem preserves : Cert.preserves_Kernel_KernelIdeal := trivial

/-- From memories that agree on the four arrays both programs end with the layer of those arrays as their result: the
    kernel's four row tiles, and the reference's one contraction. -/
theorem algebraic : Cert.algebraic_KernelIdeal_ReferenceIdeal := by
  intro m ρ m' ρ' _ hagree
  refine ⟨fun c => Cert.RowTiles.layerOf m c, Cert.RowTiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceLayer.result_eq_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
